-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x65536 : Shape := ⟨2, ![2048, 65536]⟩
abbrev S65536 : Shape := ⟨1, ![65536]⟩
abbrev S512 : Shape := ⟨1, ![512]⟩
abbrev S_ : Shape := ⟨0, ![]⟩

class Facts : Prop where
  bcast_S_S2048x65536 : S_.BroadcastsInDim S2048x65536 (![] : Fin 0 → Fin S2048x65536.rank)
  reducesTo_S2048x65536_S_d0_1 : S2048x65536.ReducesTo [0, 1] S_
  h_S_ : 0 < S_.numel
  bcast_S_S65536 : S_.BroadcastsInDim S65536 (![] : Fin 0 → Fin S65536.rank)
  reducesTo_S65536_S_d0 : S65536.ReducesTo [0] S_
  bcast_S_S512 : S_.BroadcastsInDim S512 (![] : Fin 0 → Fin S512.rank)
  reducesTo_S512_S_d0 : S512.ReducesTo [0] S_

variable [Facts]

def fn {F : FTy → Type} [FloatOps F] (main_arg0 : FVec F S2048x65536 .f32) (main_arg1 : FVec F S65536 .f32) (main_arg2 : FVec F S512 .f32) : IVec S_ 1 :=
  let main_v0 : FVec F S2048x65536 .f32 := Host.absf main_arg0
  let main_cst : FVec F S_ .f32 := constant S_ .f32 0x7F800000#32
  let main_v1 : FVec F S2048x65536 .f32 := broadcastInDim S2048x65536 ![] bcast_S_S2048x65536 main_cst
  let main_v2 : IVec S2048x65536 1 := cmpf .olt main_v0 main_v1
  let main_c : IVec S_ 1 := constantI S_ 1 1#1
  let main_v3 : IVec S_ 1 := (fun x v => Host.reduce IntOp.andi x v reducesTo_S2048x65536_S_d0_1 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S2048x65536 : Shape := ⟨2, ![2048, 65536]⟩
abbrev S65536 : Shape := ⟨1, ![65536]⟩
abbrev S512 : Shape := ⟨1, ![512]⟩
abbrev S2048x512x128 : Shape := ⟨3, ![2048, 512, 128]⟩
abbrev S512x128 : Shape := ⟨2, ![512, 128]⟩
abbrev S1x512 : Shape := ⟨2, ![1, 512]⟩
abbrev S2048x512 : Shape := ⟨2, ![2048, 512]⟩
abbrev S32x512x128 : Shape := ⟨3, ![32, 512, 128]⟩
abbrev S32x512 : Shape := ⟨2, ![32, 512]⟩
abbrev S1x512x128 : Shape := ⟨3, ![1, 512, 128]⟩

abbrev nBuf : Space → Nat
  | .hbm => 7
  | .vmem => 6
  | .smem => 0
  | _ => 0

abbrev bufTy : (tb : Table) → Fin (tcTables nBuf tb) → BufTy
  | .hbm, ⟨0, _⟩ => ⟨S2048x65536, .f32⟩
  | .hbm, ⟨1, _⟩ => ⟨S65536, .f32⟩
  | .hbm, ⟨2, _⟩ => ⟨S512, .f32⟩
  | .hbm, ⟨3, _⟩ => ⟨S2048x512x128, .f32⟩
  | .hbm, ⟨4, _⟩ => ⟨S512x128, .f32⟩
  | .hbm, ⟨5, _⟩ => ⟨S1x512, .f32⟩
  | .hbm, ⟨6, _⟩ => ⟨S2048x512, .f32⟩
  | .local _ .vmem, ⟨0, _⟩ => ⟨S32x512x128, .f32⟩
  | .local _ .vmem, ⟨1, _⟩ => ⟨S32x512x128, .f32⟩
  | .local _ .vmem, ⟨2, _⟩ => ⟨S512x128, .f32⟩
  | .local _ .vmem, ⟨3, _⟩ => ⟨S1x512, .f32⟩
  | .local _ .vmem, ⟨4, _⟩ => ⟨S32x512, .f32⟩
  | .local _ .vmem, ⟨5, _⟩ => ⟨S32x512, .f32⟩
  | _, _ => ⟨S2048x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x65536_S2048x512x128 : S2048x65536.ShapeCasts S2048x512x128
  shapeCasts_S65536_S512x128 : S65536.ShapeCasts S512x128
  shapeCasts_S512_S1x512 : S512.ShapeCasts S1x512
  inb_S32x512x128_S32x512x128_0_0_0 : ∀ a, (![0, 0, 0] : Fin 3 → Nat) a + S32x512x128.size a ≤ S32x512x128.size a
  h_S32x512x128 : 0 < S32x512x128.numel
  shapeCasts_S32x512x128_S32x512x128 : S32x512x128.ShapeCasts S32x512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S512x128_S1x512x128 : S512x128.ShapeCasts S1x512x128
  broadcasts_S1x512x128_S32x512x128 : S1x512x128.Broadcasts S32x512x128
  reduces_S32x512x128_S32x512 : S32x512x128.Reduces [2] S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  inb_S32x512_S32x512_0_0 : ∀ a, (![0, 0] : Fin 2 → Nat) a + S32x512.size a ≤ S32x512.size a
  h_S32x512 : 0 < S32x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x128.size a ≤ S2048x512x128.size a
  hwx0_0 : ∀ i : grid0.Coords, EltTy.bits .f32 = 32 ∨ (Rect.block (s := S2048x512x128) S32x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S2048x512.size a
  hwx0_3 : ∀ i : grid0.Coords, EltTy.bits .f32 = 32 ∨ (Rect.block (s := S2048x512) S32x512.size (cc0_transform_3 i) (hinb0_3 i)).WholeWords (EltTy.packing .f32)

variable [Facts₀]

abbrev win0_0 : Pipeline.Window sig grid0 :=
  Pipeline.Window.ofSpec (Memref.whole main_v0) S32x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x65536 : Shape := ⟨2, ![2048, 65536]⟩
abbrev S65536 : Shape := ⟨1, ![65536]⟩
abbrev S512 : Shape := ⟨1, ![512]⟩
abbrev S1x65536 : Shape := ⟨2, ![1, 65536]⟩
abbrev S2048x512x128 : Shape := ⟨3, ![2048, 512, 128]⟩
abbrev S_ : Shape := ⟨0, ![]⟩
abbrev S2048x512 : Shape := ⟨2, ![2048, 512]⟩
abbrev S1x512 : Shape := ⟨2, ![1, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x65536, .f32⟩
  | .hbm, ⟨1, _⟩ => ⟨S65536, .f32⟩
  | .hbm, ⟨2, _⟩ => ⟨S512, .f32⟩
  | .hbm, ⟨3, _⟩ => ⟨S1x65536, .f32⟩
  | .hbm, ⟨4, _⟩ => ⟨S2048x65536, .f32⟩
  | .hbm, ⟨5, _⟩ => ⟨S2048x65536, .f32⟩
  | .hbm, ⟨6, _⟩ => ⟨S2048x512x128, .f32⟩
  | .hbm, ⟨7, _⟩ => ⟨S_, .f32⟩
  | .hbm, ⟨8, _⟩ => ⟨S2048x512, .f32⟩
  | .hbm, ⟨9, _⟩ => ⟨S1x512, .f32⟩
  | .hbm, ⟨10, _⟩ => ⟨S2048x512, .f32⟩
  | .hbm, ⟨11, _⟩ => ⟨S2048x512, .f32⟩
  | _, _ => ⟨S2048x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S65536_S1x65536_1 : S65536.BroadcastsInDim S1x65536 (![1] : Fin 1 → Fin S1x65536.rank)
  bcast_S1x65536_S2048x65536_0_1 : S1x65536.BroadcastsInDim S2048x65536 (![0, 1] : Fin 2 → Fin S2048x65536.rank)
  shapeCasts_S2048x65536_S2048x512x128 : S2048x65536.ShapeCasts S2048x512x128
  reducesTo_S2048x512x128_S2048x512_d2 : S2048x512x128.ReducesTo [2] S2048x512
  h_S_ : 0 < S_.numel
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)

variable [Facts₀]

class Facts : Prop extends Facts₀ where

variable [Facts]
-- ==== Proof.SegmentSum.lean ====
/-
  The function both programs compute.  A row of 65536 numbers is cut into 512 consecutive segments of 128; the
  result at (r, j) is the sum over the 128 positions k of segment j of x[r, 128 j + k] * w[128 j + k], plus b[j].
  Everything is an extended real: the products and the sum are the exact ones, and the sum of a finite family
  does not depend on the order or grouping of its terms, so no finiteness of the inputs is needed anywhere.
-/
import Idealize.ShloMosaic.PureOps.Ideal
import Idealize.ShloMosaic.Lib.ValueIdx

noncomputable section

namespace Cert.SegmentSum

open Idealize.ShloMosaic Idealize.ShloMosaic.ValueIdx

/-- Position `k` of segment `j` is column `128 j + k` of the row. -/
def col (j : Fin 512) (k : Fin 128) : Fin 65536 := ⟨128 * j.val + k.val, by omega⟩

theorem col_val (j : Fin 512) (k : Fin 128) : (col j k).val = 128 * j.val + k.val := rfl

/-- The weighted segment sums of every row, plus the segment's bias. -/
def segSum (x : (⟨2, ![2048, 65536]⟩ : Shape).Idx → EReal) (w : (⟨1, ![65536]⟩ : Shape).Idx → EReal)
    (b : (⟨1, ![512]⟩ : Shape).Idx → EReal) : (⟨2, ![2048, 512]⟩ : Shape).Idx → EReal :=
  fun i => (∑ k : Fin 128, x (ix2 (i 0) (col (i 1) k)) * w (ix1 (col (i 1) k))) + b (ix1 (i 1))

theorem segSum_apply (x : (⟨2, ![2048, 65536]⟩ : Shape).Idx → EReal) (w : (⟨1, ![65536]⟩ : Shape).Idx → EReal)
    (b : (⟨1, ![512]⟩ : Shape).Idx → EReal) (r : Fin 2048) (j : Fin 512) :
    segSum x w b (ix2 r j) = (∑ k : Fin 128, x (ix2 r (col j k)) * w (ix1 (col j k))) + b (ix1 j) := rfl

end Cert.SegmentSum

end
-- ==== Proof.RefValue.lean ====
/-
  The reference, read at an index.  It multiplies every row of x by w elementwise, regroups each row of 65536
  products into 512 segments of 128, sums each segment from the initial value zero, and adds the bias of the
  segment.  Element (r, j, k) of the regrouped array sits at row-major position (r * 512 + j) * 128 + k, that
  is at row r and column 128 j + k of the product: so the reference's result is the segment sum.
-/
import proofs.«123411_j73813307949248_2_alg».proof.Proof.Gen.ReferenceIdeal.Read
import proofs.«123411_j73813307949248_2_alg».proof.Proof.SegmentSum
import Idealize.ShloMosaic.PureOps.Ideal.Laws

noncomputable section

namespace Cert.ReferenceIdeal.RefValue

open Cert.ReferenceIdeal Cert.ReferenceIdeal.Read Cert.SegmentSum
open Idealize.ShloMosaic Idealize.ShloMosaic.ValueIdx

/-- Element (r, j, k) of the regrouped product is the product at row r, column 128 j + k. -/
theorem regroup_idx (r : Fin 2048) (j : Fin 512) (k : Fin 128) :
    idx_main_v3 (idx_main_v4 (ix2 r j) k) = ix2 r (col j k) := by
  funext a
  apply Fin.ext
  have h0 : r.val < 2048 := r.isLt
  have h1 : j.val < 512 := j.isLt
  have h2 : k.val < 128 := k.isLt
  match a with
  | ⟨0, _⟩ => show ((r.val * 512 + j.val) * 128 + k.val) / 65536 = r.val; omega
  | ⟨1, _⟩ => show ((r.val * 512 + j.val) * 128 + k.val) % 65536 = 128 * j.val + k.val; omega

/-- The weight broadcast along the rows is read at the column alone. -/
theorem weight_idx (r : Fin 2048) (n : Fin 65536) : idx_main_v0 (idx_main_v1 (ix2 r n)) = ix1 n := by
  funext a
  match a with
  | ⟨0, _⟩ => rfl

/-- The bias broadcast along the rows is read at the segment alone. -/
theorem bias_idx (r : Fin 2048) (j : Fin 512) : idx_main_v5 (idx_main_v6 (ix2 r j)) = ix1 j := by
  funext a
  match a with
  | ⟨0, _⟩ => rfl

/-- One term of a segment's sum: the regrouped product at (r, j, k). -/
theorem term_eq (x0 : (⟨S2048x65536, .f32⟩ : BufTy).Contents (Elt Ideal)) (x1 : (⟨S65536, .f32⟩ : BufTy).Contents (Elt Ideal))
    (r : Fin 2048) (j : Fin 512) (k : Fin 128) :
    val_main_v3 (F := Ideal) x0 x1 (idx_main_v4 (ix2 r j) k) = x0 (ix2 r (col j k)) * x1 (ix1 (col j k)) := by
  rw [val_main_v3_apply, regroup_idx, val_main_v2_apply, val_main_v1_apply, val_main_v0_apply, weight_idx]
  rfl

/-- The reference's result is the segment sum of its arguments. -/
theorem result_eq (x0 : (⟨S2048x65536, .f32⟩ : BufTy).Contents (Elt Ideal)) (x1 : (⟨S65536, .f32⟩ : BufTy).Contents (Elt Ideal))
    (x2 : (⟨S512, .f32⟩ : BufTy).Contents (Elt Ideal)) :
    val_main_v7 (F := Ideal) x0 x1 x2 = segSum x0 x1 x2 := by
  funext i
  obtain ⟨r, j, rfl⟩ : ∃ (r : Fin 2048) (j : Fin 512), i = ix2 r j := ⟨i 0, i 1, eq_ix2 i⟩
  rw [segSum_apply, val_main_v7_apply, val_main_v4_apply, val_main_v6_apply, val_main_v5_apply, val_main_cst_apply, bias_idx]
  show (Ideal.ofBits .f32 0x00000000#32 + ∑ k : Fin 128, val_main_v3 (F := Ideal) x0 x1 (idx_main_v4 (ix2 r j) k)) + x2 (ix1 j) = _
  rw [Ideal.ofBits_zero_f32, zero_add]
  exact congrArg (· + x2 (ix1 j)) (Finset.sum_congr rfl fun k _ => term_eq x0 x1 r j k)

end Cert.ReferenceIdeal.RefValue

end
-- ==== Proof.Payload.lean ====
/-
  What one grid point computes, read at an index.  The body multiplies its block of x, of shape [32, 512, 128], by
  the weights regrouped as [512, 128] (the same for each of the 32 rows), sums the last axis from the initial value
  zero, and adds the bias, a row [1, 512] repeated over the 32 rows.  At row p and segment q of the block the stored
  value is therefore the sum over the 128 positions k of x[p, q, k] * w[q, k], plus b[0, q].
-/
import proofs.«123411_j73813307949248_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.Payload

open Cert.KernelIdeal Cert.KernelIdeal.Gen
open Idealize.ShloMosaic Idealize.ShloMosaic.ValueIdx

/-- The sum over the last axis, at (p, q), is the sum over k of the operand at (p, q, k): an exact sum of
    extended reals, into the neutral initial value. -/
theorem laneSum_apply (src : FVec Ideal S32x512x128 .f32) (p : Fin 32) (q : Fin 512) :
    multiReduction .add [2] S32x512 src 0x00000000#32 reduces_S32x512x128_S32x512 (.inl rfl) rfl (ix2 p q)
      = ∑ k : Fin 128, src (ix3 p q k) := by
  refine (Ideal.multiReduction_add_single src 0x00000000#32 reduces_S32x512x128_S32x512 (.inl rfl) rfl (ix2 p q)).trans ?_
  refine Finset.sum_congr rfl fun k _ => ?_
  exact congrArg src (funext fun a => Fin.ext (by match a with | ⟨0, _⟩ => rfl | ⟨1, _⟩ => rfl | ⟨2, _⟩ => rfl))

/-- The weights regrouped as [512, 128], given a leading axis of length one and repeated over the 32 rows, read at
    (p, q, k): the weight at (q, k), whatever the row. -/
theorem weights_apply (P1 : Vec Ideal S512x128 .f32) (p : Fin 32) (q : Fin 512) (k : Fin 128) :
    broadcastTo S32x512x128 (shapeCast S1x512x128 (shapeCast S512x128 P1 shapeCasts_S512x128_S512x128) shapeCasts_S512x128_S1x512x128)
        broadcasts_S1x512x128_S32x512x128 (ix3 p q k) = P1 (ix2 q k) := by
  refine (broadcastTo_apply _ broadcasts_S1x512x128_S32x512x128 (ix3 p q k) (ix3 (0 : Fin 1) q k) (fun a => match a with
    | ⟨0, _⟩ => by show 0 = (if (1 : Nat) = 1 then 0 else p.val); rw [if_pos rfl]
    | ⟨1, _⟩ => by show q.val = (if (512 : Nat) = 1 then 0 else q.val); rw [if_neg (by decide)]
    | ⟨2, _⟩ => by show k.val = (if (128 : Nat) = 1 then 0 else k.val); rw [if_neg (by decide)])).trans ?_
  refine (shapeCast_apply _ shapeCasts_S512x128_S1x512x128 (ix3 (0 : Fin 1) q k) (ix2 q k) (by
    rewrite [Shape.rowMajor_val_two, Shape.rowMajor_val_three]
    show q.val * 128 + k.val = (0 * 512 + q.val) * 128 + k.val
    omega)).trans ?_
  exact congrFun (shapeCast_self P1 shapeCasts_S512x128_S512x128) (ix2 q k)

/-- The bias row repeated over the 32 rows, read at (p, q): the bias at (0, q). -/
theorem bias_apply (P2 : Vec Ideal S1x512 .f32) (p : Fin 32) (q : Fin 512) :
    broadcastTo S32x512 (shapeCast S1x512 P2 shapeCasts_S1x512_S1x512) broadcasts_S1x512_S32x512 (ix2 p q)
      = P2 (ix2 (0 : Fin 1) q) := by
  refine (broadcastTo_apply _ broadcasts_S1x512_S32x512 (ix2 p q) (ix2 (0 : Fin 1) q) (fun a => match a with
    | ⟨0, _⟩ => by show 0 = (if (1 : Nat) = 1 then 0 else p.val); rw [if_pos rfl]
    | ⟨1, _⟩ => by show q.val = (if (512 : Nat) = 1 then 0 else q.val); rw [if_neg (by decide)])).trans ?_
  exact congrFun (shapeCast_self P2 shapeCasts_S1x512_S1x512) (ix2 (0 : Fin 1) q)

/-- The value the body stores, at row p and segment q of the block. -/
theorem pay_apply (P0 : Vec Ideal S32x512x128 .f32) (P1 : Vec Ideal S512x128 .f32) (P2 : Vec Ideal S1x512 .f32)
    (p : Fin 32) (q : Fin 512) :
    k0_pay1 (F := Ideal) P0 P1 P2 (ix2 p q)
      = (∑ k : Fin 128, P0 (ix3 p q k) * P1 (ix2 q k)) + P2 (ix2 (0 : Fin 1) q) := by
  unfold k0_pay1
  show (multiReduction (F := Ideal) .add [2] S32x512 (mulf (F := Ideal) (shapeCast S32x512x128 P0 shapeCasts_S32x512x128_S32x512x128)
        (broadcastTo S32x512x128 (shapeCast S1x512x128 (shapeCast S512x128 P1 shapeCasts_S512x128_S512x128) shapeCasts_S512x128_S1x512x128)
          broadcasts_S1x512x128_S32x512x128)) 0x00000000#32 reduces_S32x512x128_S32x512 (.inl rfl) rfl) (ix2 p q)
      + (broadcastTo S32x512 (shapeCast S1x512 P2 shapeCasts_S1x512_S1x512) broadcasts_S1x512_S32x512) (ix2 p q) = _
  refine congrArg₂ (· + ·) ?_ (bias_apply P2 p q)
  refine (laneSum_apply _ p q).trans (Finset.sum_congr rfl fun k _ => ?_)
  show (shapeCast S32x512x128 P0 shapeCasts_S32x512x128_S32x512x128) (ix3 p q k)
      * (broadcastTo S32x512x128 (shapeCast S1x512x128 (shapeCast S512x128 P1 shapeCasts_S512x128_S512x128) shapeCasts_S512x128_S1x512x128)
          broadcasts_S1x512x128_S32x512x128) (ix3 p q k) = _
  exact congrArg₂ (· * ·) (congrFun (shapeCast_self P0 shapeCasts_S32x512x128_S32x512x128) (ix3 p q k)) (weights_apply P1 p q k)

end Cert.KernelIdeal.Payload

end
-- ==== Proof.KernelValue.lean ====
/-
  The kernel's result array.  Before the grid runs, x is regrouped as [2048, 512, 128], the weights as [512, 128]
  and the bias as one row [1, 512]; none of these moves a number, element (r, j, k) of the regrouped x being
  x[r, 128 j + k].  Grid point t works on rows 32 t .. 32 t + 31: its block of x is those rows, the weights and
  the bias are whole at every point, and it writes rows 32 t .. 32 t + 31 of the result.  So what point t writes
  is its block of the segment sum of the arguments; the 64 blocks tile the 2048 rows, row r lying in the block of
  point r / 32; and the result array ends as the segment sum.
-/
import proofs.«123411_j73813307949248_2_alg».proof.Proof.Gen.KernelIdeal.Value
import proofs.«123411_j73813307949248_2_alg».proof.Proof.Payload
import proofs.«123411_j73813307949248_2_alg».proof.Proof.SegmentSum
import Idealize.ShloMosaic.Lib.Pipeline.Value
import Idealize.ShloMosaic.Lib.StableHlo.Run
import Idealize.ShloMosaic.Lib.Tactic

noncomputable section

namespace Cert.KernelIdeal.Result

open Cert.KernelIdeal Cert.KernelIdeal.Gen Cert.SegmentSum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The arrays the grid finds -/

/-- Element (r, j, k) of the regrouped x is x[r, 128 j + k]: both sit at row-major position r * 65536 + 128 j + k. -/
theorem x_regrouped (c : Dev nD) (r : Fin 2048) (j : Fin 512) (k : Fin 128) :
    (V m c main_v0 : S2048x512x128.Idx → EReal) (ix3 r j k)
      = (m ((c : Thread nD τ).loc main_arg0) : S2048x65536.Idx → EReal) (ix2 r (col j k)) := by
  have e : (V m c main_v0 : S2048x512x128.Idx → EReal)
      = shapeCast S2048x512x128 (m ((c : Thread nD τ).loc main_arg0) : S2048x65536.Idx → EReal) shapeCasts_S2048x65536_S2048x512x128 := by
    dsimp only [V, hostOps0]; after_results; rfl
  rw [e]
  exact shapeCast_apply _ shapeCasts_S2048x65536_S2048x512x128 (ix3 r j k) (ix2 r (col j k)) (by
    rewrite [Shape.rowMajor_val_two, Shape.rowMajor_val_three]
    show r.val * 65536 + (128 * j.val + k.val) = (r.val * 512 + j.val) * 128 + k.val
    omega)

/-- Element (j, k) of the regrouped weights is w[128 j + k]. -/
theorem w_regrouped (c : Dev nD) (j : Fin 512) (k : Fin 128) :
    (V m c main_v1 : S512x128.Idx → EReal) (ix2 j k)
      = (m ((c : Thread nD τ).loc main_arg1) : S65536.Idx → EReal) (ix1 (col j k)) := by
  have e : (V m c main_v1 : S512x128.Idx → EReal)
      = shapeCast S512x128 (m ((c : Thread nD τ).loc main_arg1) : S65536.Idx → EReal) shapeCasts_S65536_S512x128 := by
    dsimp only [V, hostOps0]; after_results; rfl
  rw [e]
  exact shapeCast_apply _ shapeCasts_S65536_S512x128 (ix2 j k) (ix1 (col j k)) (by
    rewrite [Shape.rowMajor_val_one, Shape.rowMajor_val_two]
    show 128 * j.val + k.val = j.val * 128 + k.val
    omega)

/-- Element (0, j) of the bias row is b[j]. -/
theorem b_row (c : Dev nD) (j : Fin 512) :
    (V m c main_v2 : S1x512.Idx → EReal) (ix2 (0 : Fin 1) j)
      = (m ((c : Thread nD τ).loc main_arg2) : S512.Idx → EReal) (ix1 j) := by
  have e : (V m c main_v2 : S1x512.Idx → EReal)
      = shapeCast S1x512 (m ((c : Thread nD τ).loc main_arg2) : S512.Idx → EReal) shapeCasts_S512_S1x512 := by
    dsimp only [V, hostOps0]; after_results; rfl
  rw [e]
  exact shapeCast_apply _ shapeCasts_S512_S1x512 (ix2 (0 : Fin 1) j) (ix1 j) (by
    rewrite [Shape.rowMajor_val_one, Shape.rowMajor_val_two]
    show j.val = 0 * 512 + j.val
    omega)

/-! ## Which block each point works on -/

/-- The printed index maps over the 64 points: point t takes block t of x along the rows and writes block t of the
    result along the rows; every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of x is row 32 t + p of x. -/
theorem x_block (c : Dev nD) (t : Fin cfg0.N) (p : Fin 32) (q : Fin 512) (k : Fin 128) (r : Fin 2048)
    (hr : r.val = 32 * t.val + p.val) :
    (iblk m c 0 t : Vec Ideal S32x512x128 .f32) (ix3 p q k)
      = (m ((c : Thread nD τ).loc main_arg0) : S2048x65536.Idx → EReal) (ix2 r (col q k)) := by
  obtain ⟨e0, e1, e2, -⟩ := idx_facts t
  have hemb : ((cfg0.win 0).blk t).view.emb (ix3 p q k) = ix3 r q k := by
    funext a; apply Fin.ext
    match a with
    | ⟨0, _⟩ => show win0_0.index t (0 : Fin 3) * 32 + 1 * p.val = r.val; omega
    | ⟨1, _⟩ => show win0_0.index t (1 : Fin 3) * 512 + 1 * q.val = q.val; omega
    | ⟨2, _⟩ => show win0_0.index t (2 : Fin 3) * 128 + 1 * k.val = k.val; omega
  show V m c main_v0 (((cfg0.win 0).blk t).view.emb (ix3 p q k)) = _
  rw [hemb]
  exact x_regrouped m c r q k

/-- Every point's block of the weights is the whole regrouped array. -/
theorem w_block (c : Dev nD) (t : Fin cfg0.N) (q : Fin 512) (k : Fin 128) :
    (iblk m c 1 t : Vec Ideal S512x128 .f32) (ix2 q k)
      = (m ((c : Thread nD τ).loc main_arg1) : S65536.Idx → EReal) (ix1 (col q k)) := by
  obtain ⟨-, -, -, e0, e1, -⟩ := idx_facts t
  have hemb : ((cfg0.win 1).blk t).view.emb (ix2 q k) = ix2 q k := by
    funext a; apply Fin.ext
    match a with
    | ⟨0, _⟩ => show win0_1.index t (0 : Fin 2) * 512 + 1 * q.val = q.val; omega
    | ⟨1, _⟩ => show win0_1.index t (1 : Fin 2) * 128 + 1 * k.val = k.val; omega
  show V m c main_v1 (((cfg0.win 1).blk t).view.emb (ix2 q k)) = _
  rw [hemb]
  exact w_regrouped m c q k

/-- Every point's block of the bias is the whole row. -/
theorem b_block (c : Dev nD) (t : Fin cfg0.N) (q : Fin 512) :
    (iblk m c 2 t : Vec Ideal S1x512 .f32) (ix2 (0 : Fin 1) q)
      = (m ((c : Thread nD τ).loc main_arg2) : S512.Idx → EReal) (ix1 q) := by
  obtain ⟨-, -, -, -, -, e0, e1, -⟩ := idx_facts t
  have hemb : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 512 + 1 * q.val = q.val; omega
  show V m c main_v2 (((cfg0.win 2).blk t).view.emb (ix2 (0 : Fin 1) q)) = _
  rw [hemb]
  exact b_row m c q

/-! ## What a point writes, and the whole array -/

/-- The result as one function of the arguments as launched. -/
abbrev result (c : Dev nD) : S2048x512.Idx → EReal :=
  segSum (m ((c : Thread nD τ).loc main_arg0)) (m ((c : Thread nD τ).loc main_arg1)) (m ((c : Thread nD τ).loc main_arg2))

/-- Point t writes back rows 32 t .. 32 t + 31 of the segment sum. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero zeros2]
  simp only [View.ld_unit_zero (S := S32x512x128) zeros3, View.ld_unit_zero (S := S512x128) zeros2,
    View.ld_unit_zero (S := S1x512) zeros2]
  have ht : t.val < 64 := Nat.lt_of_lt_of_eq t.isLt (show cfg0.N = 64 from N_0)
  obtain ⟨-, -, -, -, -, -, -, e0, e1⟩ := idx_facts t
  funext y
  obtain ⟨p, q, rfl⟩ : ∃ (p : Fin 32) (q : Fin 512), y = ix2 p q := ⟨y 0, y 1, eq_ix2 y⟩
  obtain ⟨r, hr⟩ : ∃ r : Fin 2048, r.val = 32 * t.val + p.val := ⟨⟨32 * t.val + p.val, by have := p.isLt; omega⟩, rfl⟩
  have hemb : ((cfg0.win 3).blk t).view.emb (ix2 p q) = ix2 r q := by
    funext a; apply Fin.ext
    match a with
    | ⟨0, _⟩ => show win0_3.index t (0 : Fin 2) * 32 + 1 * p.val = r.val; omega
    | ⟨1, _⟩ => show win0_3.index t (1 : Fin 2) * 512 + 1 * q.val = q.val; omega
  show k0_pay1 (F := Ideal) (iblk m c 0 t) (iblk m c 1 t) (iblk m c 2 t) (ix2 p q)
      = result m c (((cfg0.win 3).blk t).view.emb (ix2 p q))
  rw [hemb]
  refine (Payload.pay_apply (iblk m c 0 t) (iblk m c 1 t) (iblk m c 2 t) p q).trans ?_
  refine (congrArg₂ (· + ·) (Finset.sum_congr rfl fun k _ => ?_) (b_block m c t q)).trans (segSum_apply _ _ _ r q).symm
  exact congrArg₂ (· * ·) (x_block m c t p q k r hr) (w_block m c t q k)

/-- An index of the result lies in point t's block iff each coordinate lies in the block's range on its axis. -/
theorem mem_blk (t : Fin cfg0.N) (i : S2048x512.Idx) :
    i ∈ ((cfg0.win 3).blk t).view.set
      ↔ ∀ a : Fin 2, win0_3.index t a * S32x512.size a ≤ (i a).val ∧ (i a).val < win0_3.index t a * S32x512.size a + S32x512.size a := by
  show i ∈ ((View.whole main_v3).slice (win0_3.rect t)).set ↔ _
  rw [View.set_slice_whole, Rect.mem_set_unit]
  exact Iff.rfl

/-- Every index of the result lies in the block of some point: row r in that of point r / 32. -/
theorem cover (i : S2048x512.Idx) :
    ∃ t : Fin cfg0.N, (cfg0.win 3).flush t = true ∧ i ∈ ((cfg0.win 3).blk t).view.set := by
  have hi0 : (i 0).val < 2048 := (i 0).isLt
  have hi1 : (i 1).val < 512 := (i 1).isLt
  have hN : cfg0.N = 64 := N_0
  refine ⟨⟨(i 0).val / 32, by rw [hN]; omega⟩, flush0_3 _, ?_⟩
  obtain ⟨-, -, -, -, -, -, -, e0, e1⟩ := idx_facts ⟨(i 0).val / 32, by rw [hN]; omega⟩
  rw [mem_blk]
  intro a
  match a with
  | ⟨0, _⟩ =>
    show win0_3.index ⟨(i 0).val / 32, _⟩ (0 : Fin 2) * 32 ≤ (i 0).val ∧ (i 0).val < win0_3.index ⟨(i 0).val / 32, _⟩ (0 : Fin 2) * 32 + 32
    rw [e0]; show (i 0).val / 32 * 32 ≤ (i 0).val ∧ (i 0).val < (i 0).val / 32 * 32 + 32; omega
  | ⟨1, _⟩ =>
    show win0_3.index ⟨(i 0).val / 32, _⟩ (1 : Fin 2) * 512 ≤ (i 1).val ∧ (i 1).val < win0_3.index ⟨(i 0).val / 32, _⟩ (1 : Fin 2) * 512 + 512
    rw [e1]; omega

/-- After the run the result array is the segment sum of the arguments. -/
theorem final (c : Dev nD) : (dats m 0 c).arrAt 3 cfg0.N = result m c :=
  (dats m 0 c).arrAt_eq_of_cover 3 (result m c) (fun t _ => flushed_eq m c t) cover

/-- Every weakly fair execution of the kernel's program terminates with the result array at the segment sum of the
    arguments and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Result

end
-- ==== Proof.lean ====
/-
  A weighted segment sum: out[r, j] = sum over k < 128 of x[r, 128 j + k] * w[128 j + k], plus b[j], for 2048 rows
  and 512 segments of 128 columns.

  The kernel regroups x as [2048, 512, 128], the weights as [512, 128] and the bias as [1, 512] (no number moves),
  and a grid of 64 points each takes 32 rows: multiply by the weights, sum the last axis, add the bias.  The
  reference multiplies x by the weights along every row first, regroups the products as [2048, 512, 128], sums the
  last axis from zero and adds the bias.  Read on the extended reals, with exact products and sums, both arrays are
  the same function of the arguments, index by index (SegmentSum.lean): element (r, j, k) of either regrouping is
  column 128 j + k of row r, the reference's initial zero is the neutral element of the sum, and a finite sum does
  not depend on how its terms were laid out.  No law that fails at an infinity is used, so the precondition that
  the inputs are finite is never opened.

  RefValue.lean reads the reference's result at an index; Payload.lean reads what one grid point stores;
  KernelValue.lean shows that point t stores rows 32 t .. 32 t + 31 of the segment sum, that these 64 blocks tile the
  result, and hence that the kernel's run ends with the result array at the segment sum.  The three frame claims
  are the generated runs; the idealized kernel is the kernel's own text read at the extended reals (the pass rewrote
  nothing), so that claim is trivial.
-/
import proofs.«123411_j73813307949248_2_alg».proof.Defs
import proofs.«123411_j73813307949248_2_alg».proof.Proof.Gen.Kernel
import proofs.«123411_j73813307949248_2_alg».proof.Proof.Gen.Kernel.Skeleton
import proofs.«123411_j73813307949248_2_alg».proof.Proof.Gen.Kernel.Launch
import proofs.«123411_j73813307949248_2_alg».proof.Proof.Gen.Kernel.Points
import proofs.«123411_j73813307949248_2_alg».proof.Proof.Gen.Kernel.Frame
import proofs.«123411_j73813307949248_2_alg».proof.Proof.Gen.KernelIdeal
import proofs.«123411_j73813307949248_2_alg».proof.Proof.Gen.KernelIdeal.Skeleton
import proofs.«123411_j73813307949248_2_alg».proof.Proof.Gen.KernelIdeal.Launch
import proofs.«123411_j73813307949248_2_alg».proof.Proof.Gen.KernelIdeal.Points
import proofs.«123411_j73813307949248_2_alg».proof.Proof.Gen.KernelIdeal.Frame
import proofs.«123411_j73813307949248_2_alg».proof.Proof.Gen.ReferenceIdeal
import proofs.«123411_j73813307949248_2_alg».proof.Proof.Gen.Pre_finite_inputs
import proofs.«123411_j73813307949248_2_alg».proof.Proof.Gen.KernelIdeal.Value
import proofs.«123411_j73813307949248_2_alg».proof.Proof.Gen.ReferenceIdeal.Run
import proofs.«123411_j73813307949248_2_alg».proof.Proof.Gen.ReferenceIdeal.Read
import proofs.«123411_j73813307949248_2_alg».proof.Proof.SegmentSum
import proofs.«123411_j73813307949248_2_alg».proof.Proof.RefValue
import proofs.«123411_j73813307949248_2_alg».proof.Proof.Payload
import proofs.«123411_j73813307949248_2_alg».proof.Proof.KernelValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading at the extended reals. -/
theorem preserves : Cert.preserves_Kernel_KernelIdeal := trivial

/-- From memories that agree on x, w and b, the kernel's result array and the reference's both end at the segment
    sum of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
